-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S1x1024x3 : Shape := ⟨3, ![1, 1024, 3]⟩
abbrev S1x1024x1 : Shape := ⟨3, ![1, 1024, 1]⟩
abbrev S1024x1 : Shape := ⟨2, ![1024, 1]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S4x8192 : Shape := ⟨2, ![4, 8192]⟩
abbrev S_ : Shape := ⟨0, ![]⟩

abbrev nBuf : Space → Nat
  | .hbm => 23
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192x1, .f32⟩
  | .hbm, ⟨4, _⟩ => ⟨S4x8192, .f32⟩
  | .hbm, ⟨5, _⟩ => ⟨S_, .f32⟩
  | .hbm, ⟨6, _⟩ => ⟨S4x8192, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1024x3, .f32⟩
  | .local _ .vmem, ⟨7, _⟩ => ⟨S1x1024x3, .f32⟩
  | .local _ .vmem, ⟨8, _⟩ => ⟨S1x1024x3, .f32⟩
  | .local _ .vmem, ⟨9, _⟩ => ⟨S1x1024x3, .f32⟩
  | .local _ .vmem, ⟨10, _⟩ => ⟨S1x1024x1, .f32⟩
  | .local _ .vmem, ⟨11, _⟩ => ⟨S1x1024x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![4, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 8, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S4x8192x1_S4x8192 : S4x8192x1.ShapeCasts S4x8192
  bcast_S_S4x8192 : S_.BroadcastsInDim S4x8192 (![] : Fin 0 → Fin S4x8192.rank)
  reducesTo_S4x8192_S_d0_1 : S4x8192.ReducesTo [0, 1] S_
  h_S_ : 0 < S_.numel
  dot_S1024x3_S1024x3_S1024x1024_1_1_0_0_n_n_wf : DotDims.WF S1024x3 S1024x3 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x3.size a ≤ S4x8192x3.size a
  hwx1_0 : ∀ i : grid1.Coords, EltTy.bits .f32 = 32 ∨ (Rect.block (s := S4x8192x3) S1x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x3.size a ≤ S4x8192x3.size a
  hwx1_1 : ∀ i : grid1.Coords, EltTy.bits .f32 = 32 ∨ (Rect.block (s := S4x8192x3) S1x1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1.size a ≤ S4x8192x1.size a
  hwx1_2 : ∀ i : grid1.Coords, EltTy.bits .f32 = 32 ∨ (Rect.block (s := S4x8192x1) S1x1024x1.size (cc1_transform_2 i) (hinb1_2 i)).WholeWords (EltTy.packing .f32)

variable [Facts₀]

def dot_S1024x3_S1024x3_S1024x1024_1_1_0_0_n_n : DotDims S1024x3 S1024x3 S1024x1024 where
  lhsContracting := [1]
  rhsContracting := [1]
  lhsNonContracting := [0]
  rhsNonContracting := [0]
  lhsBatch := []
  rhsBatch := []
  wf := dot_S1024x3_S1024x3_S1024x1024_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_cst_9 : Ref sig .tc := ⟨.hbm, 34, rfl⟩
abbrev main_v22 : Ref sig .tc := ⟨.hbm, 35, rfl⟩
abbrev main_v23 : Ref sig .tc := ⟨.hbm, 36, rfl⟩
abbrev main_cst_10 : Ref sig .tc := ⟨.hbm, 37, rfl⟩
abbrev main_v24 : Ref sig .tc := ⟨.hbm, 38, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d1 : S4x8192x8192.ReducesTo [1] S4x8192
  bcast_S_S4x8192 : S_.BroadcastsInDim S4x8192 (![] : Fin 0 → Fin S4x8192.rank)
  reducesTo_S4x8192_S_d0_1 : S4x8192.ReducesTo [0, 1] S_
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Run.lean ====
/-
  The kernel program's run with its result named.

  @main is two nearest-point regions followed by a stretch of host operations. Every weakly fair execution from a
  memory with zero counters terminates without a fault, and in the final state every buffer that outlives the regions
  holds the contents the chain of segments leaves: the launch memory, with each region's arrays replaced by what its
  write-backs leave, and then the host operations applied (`W3`). Read at the result buffer and at the two arguments:
  the result is the host operations' value of the two regions' result arrays, and the arguments are as launched.
-/
import proofs.«103326_j35502199669085_1_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and the two arguments as launched. -/
theorem run : θ_run defs (onTc (τ := τ) (main (F := F))) ⟨m, fun _ => 0, ρ⟩ (fun r => ∀ c : Dev nD,
      r.2.mem ((c.tc : Thread nD τ).loc main_v13) = W3 m ρ c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v13 (by decide)),
       (h c _ (mem_uc main_arg0 (by decide))).trans (W3_main_arg0 m ρ c),
       (h c _ (mem_uc main_arg1 (by decide))).trans (W3_main_arg1 m ρ c)⟩)

end Cert.KernelIdeal.Named

end
-- ==== Proof.LibKeepdims.lean ====
/-
  Column vectors kept as two-dimensional arrays, read at an index.

  A row sum taken with `keepdims` leaves a vector of length `a` as an `[a, 1]` array; the kernel then re-lays that
  column (a transpose to `[1, a]`, a broadcast along the rows or along the columns). Each lemma below reads ONE such
  operation at an index written by its coordinates (`ix1`, `ix2`), so that a chain of them walks from an element of the
  broadcast array back to the element of the vector it copies. The rest read a sum along the second axis of a matrix
  as a sum over the column coordinate: the index the reduction inserts at row `p` and column `k` is `(p, k)`
  (`lift_row`), so the vector unit's reduction, whose accumulator word is the sum's neutral element and adds nothing,
  is at row `p` the sum of the row's entries (`rowSum_apply`; `rowSum_zero_f32_apply` for the f32 zero word).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Keepdims

open Idealize.ShloMosaic Idealize.ShloMosaic.ValueIdx

variable {α : Type}

/-- A vector of length `a` cast to a column `[a, 1]` reads, at `(i, u)`, the vector at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction along the second axis of a matrix inserts: row `p`, column `k`. -/
theorem lift_row {a b : ℕ} (h : (⟨2, ![a, b]⟩ : Shape).Reduces [1] ⟨1, ![a]⟩) (p : Fin a) (k : Fin b) :
    h.lift (ix1 p) k = ix2 p k :=
  funext fun d => Fin.ext (by match d with | ⟨0, _⟩ => rfl | ⟨1, _⟩ => rfl)

/-- At the exact values, the vector unit's sum along the second axis of a matrix, started from the zero word, is at row
    `p` the sum over the columns `k` of the entries `(p, k)`. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (lift_row h p k))

/-- The same for the f32 zero word with the accumulator's neutrality stated as the plain equation of words a printed
    body carries (`0 = 0`: the neutral element of an f32 sum IS the zero word, by computation). -/
theorem rowSum_zero_f32_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) :=
  rowSum_apply v _ h hφ hacc p

end Cert.Keepdims

end
-- ==== Proof.LibTileMin.lean ====
/-
  A minimum taken tile by tile.

  A kernel that looks for the smallest entry of a long row often walks the row in tiles of a fixed width: it keeps a
  running minimum, starts it at the top element, and at each tile replaces it by the smaller of itself and the tile's
  own minimum. The lemmas below say, in any complete linear order, that this running value after the tiles covering
  the indices below `cnt` is the infimum of the row over those indices (`below`), that the empty prefix gives the top
  element, that one more tile extends the prefix by the tile's width (`below_add`), and that the full prefix is the
  infimum of the whole row (`below_of_le`). A fold of `min` from the top element over a finite type is the infimum of
  the family (`fold_min_top_eq_iInf`), which is how a reduction with a `min` body reads.
-/
import Mathlib.Order.CompleteLattice.Finset
import Mathlib.Data.Finset.Fold
import Mathlib.Data.Fintype.Basic

namespace Cert.TileMin

variable {α : Type*} [CompleteLinearOrder α]

/-- `min` of two elements is their infimum. -/
theorem min_eq_inf (x y : α) : min x y = x ⊓ y :=
  le_antisymm (le_inf (min_le_left _ _) (min_le_right _ _)) (le_min inf_le_left inf_le_right)

/-- The fold of `min` from the top element over a finite set is the infimum of the family over the set. -/
theorem fold_min_top_eq_biInf {ι : Type*} [DecidableEq ι] (g : ι → α) (s : Finset ι) :
    s.fold min ⊤ g = ⨅ k ∈ s, g k := by
  induction s using Finset.induction_on with
  | empty => simp
  | insert a s ha ih => rw [Finset.fold_insert ha, ih, Finset.iInf_insert, min_eq_inf]

/-- The fold of `min` from the top element over a whole finite type is the infimum of the family. -/
theorem fold_min_top_eq_iInf {ι : Type*} [Fintype ι] (g : ι → α) :
    (Finset.univ : Finset ι).fold min ⊤ g = ⨅ k, g k := by
  classical
  rw [fold_min_top_eq_biInf]
  simp

/-- The infimum of `f` over the indices below `cnt`. -/
def below {N : ℕ} (f : Fin N → α) (cnt : ℕ) : α := ⨅ m : Fin N, ⨅ (_ : m.val < cnt), f m

/-- No index is below zero: the infimum over the empty prefix is the top element. -/
theorem below_zero {N : ℕ} (f : Fin N → α) : below f 0 = ⊤ := by
  unfold below
  simp

/-- Every index is below a bound that is at least the length: the prefix is the whole row. -/
theorem below_of_le {N : ℕ} (f : Fin N → α) {cnt : ℕ} (h : N ≤ cnt) : below f cnt = ⨅ m, f m := by
  unfold below
  exact iInf_congr fun m => iInf_pos (lt_of_lt_of_le m.isLt h)

/-- One more tile: the smaller of the prefix's infimum and the infimum of a tile of width `T` that holds the entries
    `cnt, cnt + 1, …, cnt + T - 1` is the infimum over the prefix extended by the tile. -/
theorem below_add {N T : ℕ} (f : Fin N → α) (cnt : ℕ) (hc : cnt + T ≤ N) (tile : Fin T → α)
    (ht : ∀ l : Fin T, tile l = f ⟨cnt + l.val, Nat.lt_of_lt_of_le (Nat.add_lt_add_left l.isLt cnt) hc⟩) :
    min (below f cnt) (⨅ l, tile l) = below f (cnt + T) := by
  unfold below
  apply le_antisymm
  · refine le_iInf fun m => le_iInf fun hm => ?_
    by_cases h : m.val < cnt
    · exact (min_le_left _ _).trans ((iInf_le _ m).trans (iInf_le _ h))
    · have hl : m.val - cnt < T := by omega
      refine (min_le_right _ _).trans ((iInf_le _ ⟨m.val - cnt, hl⟩).trans ?_)
      rw [ht]
      exact le_of_eq (congrArg f (Fin.ext (by show cnt + (m.val - cnt) = m.val; omega)))
  · refine le_min (le_iInf fun m => le_iInf fun hm => (iInf_le _ m).trans (iInf_le _ (by omega))) (le_iInf fun l => ?_)
    rw [ht]
    have hl := l.isLt
    exact (iInf_le _ _).trans (iInf_le _ (by show cnt + l.val < cnt + T; omega))

end Cert.TileMin
-- ==== Proof.Spec.lean ====
/-
  The specification both programs are read against.

  Two clouds of points `x` and `y`, each of four batches of 8192 points with three coordinates. For a point `q` and a
  point `k` the squared distance is taken in its expanded form |q|² + |k|² − 2 q·k (`sqDist`). `nearest q k` is, for
  each point of the cloud `q`, the infimum over the points of `k` of the same batch of that squared distance.
-/
import Idealize.ShloMosaic.PureOps.Ideal
import Idealize.ShloMosaic.Lib.ValueIdx

noncomputable section

open scoped BigOperators

namespace Cert.Chamfer

open Idealize.ShloMosaic Idealize.ShloMosaic.ValueIdx

/-- The factor two of the cross term, as the f32 word both programs carry. -/
abbrev two : EReal := Ideal.ofBits .f32 0x40000000#32

/-- The squared distance of two points of three coordinates in expanded form: |q|² + |k|² − 2 q·k. -/
def sqDist (q k : Fin 3 → EReal) : EReal := (∑ d, q d * q d + ∑ d, k d * k d) - two * ∑ d, q d * k d

/-- A cloud: four batches of 8192 points of three coordinates. -/
abbrev Cloud : Type := (⟨3, ![4, 8192, 3]⟩ : Shape).Idx → EReal

/-- Point `n` of batch `b` of a cloud. -/
def pt (a : Cloud) (b : Fin 4) (n : Fin 8192) : Fin 3 → EReal := fun d => a (ix3 b n d)

/-- The distance from point `n` of batch `b` of `q` to the nearest point of batch `b` of `k`. -/
def nearest (q k : Cloud) (b : Fin 4) (n : Fin 8192) : EReal := ⨅ m : Fin 8192, sqDist (pt q b n) (pt k b m)

/-- The expanded squared distance does not depend on which point is called the first: both the sum of the two squared
    norms and the inner product are symmetric. -/
theorem sqDist_comm (q k : Fin 3 → EReal) : sqDist q k = sqDist k q := by
  unfold sqDist
  rw [add_comm]
  exact congrArg (fun z => (∑ d, k d * k d + ∑ d, q d * q d) - two * z) (Finset.sum_congr rfl fun d _ => mul_comm (q d) (k d))

end Cert.Chamfer

end
-- ==== Proof.TileDist.lean ====
/-
  One grid point of the nearest-point kernel, read at a row.

  At a grid point the body holds a tile of 1024 query points `a` and a tile of 1024 key points `b` (each a
  `[1024, 3]` matrix) and the running minima `o` of the 1024 query rows. It forms the `[1024, 1024]` matrix of expanded
  squared distances, |a_p|² + |b_l|² − 2 a_p·b_l at row `p` and column `l` — the two squared norms as row sums, the
  first kept as a column and broadcast along the rows, the second laid as a row and broadcast along the columns, the
  inner products by a matrix product contracting the coordinate axis of both tiles into a zero accumulator —, takes each
  row's minimum from +∞, and stores the smaller of that and the running minimum.
  Read at query row `r` (`pay_apply`): the smaller of the running minimum at `r` and the infimum over the key rows
  `l` of the expanded squared distance between query row `r` and key row `l`. The value the first grid point of a
  row of tiles stores beforehand is +∞ at every row (`init_apply`).
-/
import proofs.«103326_j35502199669085_1_alg».proof.Proof.Gen.KernelIdeal.Skeleton
import proofs.«103326_j35502199669085_1_alg».proof.Proof.LibKeepdims
import proofs.«103326_j35502199669085_1_alg».proof.Proof.LibTileMin
import proofs.«103326_j35502199669085_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Chamfer

/-- The word of +∞ is the top element of the extended reals. -/
theorem ofBits_inf : Ideal.ofBits .f32 0x7F800000#32 = (⊤ : EReal) := by simp [Ideal.ofBits, Ideal.ieee]

/-! ## The stages of the body, as functions of the two tiles -/

/-- The squared norm of each row of a tile. -/
def sqNorm (v : FVec Ideal S1024x3 .f32) : FVec Ideal S1024 .f32 :=
  multiReduction .add [1] S1024 (mulf v v) 0x00000000#32 reduces_S1024x3_S1024 (.inl rfl) rfl

/-- The inner products of the rows of two tiles. -/
def inner (a b : FVec Ideal S1024x3 .f32) : FVec Ideal S1024x1024 .f32 :=
  matmul dot_S1024x3_S1024x3_S1024x1024_1_1_0_0_n_n none a b (constant S1024x1024 .f32 0x00000000#32)

/-- The matrix of expanded squared distances between the rows of two tiles. -/
def distTile (a b : FVec Ideal S1024x3 .f32) : FVec Ideal S1024x1024 .f32 :=
  subf (addf (broadcastTo S1024x1024 (shapeCast S1024x1 (sqNorm a) shapeCasts_S1024_S1024x1) broadcasts_S1024x1_S1024x1024)
             (broadcastTo S1024x1024 (shapeCast S1x1024 (sqNorm b) shapeCasts_S1024_S1x1024) broadcasts_S1x1024_S1024x1024))
       (mulf (broadcast S1024x1024 (Scalar.ofBits (F := Ideal) .f32 0x40000000#32)) (inner a b))

/-- Each row's minimum of the distance matrix, from +∞. -/
def rowMin (a b : FVec Ideal S1024x3 .f32) : FVec Ideal S1024 .f32 :=
  multiReduction .minimumf [1] S1024 (distTile a b) 0x7F800000#32 reduces_S1024x1024_S1024 (.inl rfl) rfl

/-- The body's stored value is these stages composed. -/
theorem pay_eq (x0 x1 : Vec Ideal S1x1024x3 .f32) (xo : Vec Ideal S1x1024x1 .f32) :
    k0_pay2 (F := Ideal) x0 x1 xo
      = shapeCast S1x1024x1
          (minimumf (shapeCast S1024x1 xo shapeCasts_S1x1024x1_S1024x1)
            (shapeCast S1024x1 (rowMin (shapeCast S1024x3 x0 shapeCasts_S1x1024x3_S1024x3)
              (shapeCast S1024x3 x1 shapeCasts_S1x1024x3_S1024x3)) shapeCasts_S1024_S1024x1))
          shapeCasts_S1024x1_S1x1024x1 := rfl

/-- The second region's body stores the same function of its tiles. -/
theorem pay1_eq : @k1_pay2 Ideal _ = @k0_pay2 Ideal _ := rfl

/-! ## Each stage at an index -/

theorem sqNorm_apply (v : FVec Ideal S1024x3 .f32) (p : Fin 1024) :
    sqNorm v (ix1 p) = ∑ d : Fin 3, v (ix2 p d) * v (ix2 p d) := by
  unfold sqNorm
  exact (Cert.Keepdims.rowSum_apply (mulf v v) _ reduces_S1024x3_S1024 (.inl rfl) rfl p)

/-- The contraction index of the tiles' product is the coordinate. -/
theorem lhs0 (j : S1024x1024.Idx) (q : dot_S1024x3_S1024x3_S1024x1024_1_1_0_0_n_n.contr.Idx) :
    (dot_S1024x3_S1024x3_S1024x1024_1_1_0_0_n_n.lhsIdx j q 0).val = (j 0).val := by
  unfold DotDims.lhsIdx
  rw [dif_neg (show ¬(0 : Fin S1024x3.rank) ∈ dot_S1024x3_S1024x3_S1024x1024_1_1_0_0_n_n.lhsBatch by decide),
    dif_pos (show (0 : Fin S1024x3.rank) ∈ dot_S1024x3_S1024x3_S1024x1024_1_1_0_0_n_n.lhsNonContracting by decide)]
  rfl
theorem lhs1 (j : S1024x1024.Idx) (q : dot_S1024x3_S1024x3_S1024x1024_1_1_0_0_n_n.contr.Idx) :
    (dot_S1024x3_S1024x3_S1024x1024_1_1_0_0_n_n.lhsIdx j q 1).val = (q ⟨0, by decide⟩).val :=
  dot_S1024x3_S1024x3_S1024x1024_1_1_0_0_n_n.lhsIdx_val_of_single rfl j q
theorem rhs0 (j : S1024x1024.Idx) (q : dot_S1024x3_S1024x3_S1024x1024_1_1_0_0_n_n.contr.Idx) :
    (dot_S1024x3_S1024x3_S1024x1024_1_1_0_0_n_n.rhsIdx j q 0).val = (j 1).val := by
  unfold DotDims.rhsIdx
  rw [dif_neg (show ¬(0 : Fin S1024x3.rank) ∈ dot_S1024x3_S1024x3_S1024x1024_1_1_0_0_n_n.rhsBatch by decide),
    dif_pos (show (0 : Fin S1024x3.rank) ∈ dot_S1024x3_S1024x3_S1024x1024_1_1_0_0_n_n.rhsNonContracting by decide)]
  rfl
theorem rhs1 (j : S1024x1024.Idx) (q : dot_S1024x3_S1024x3_S1024x1024_1_1_0_0_n_n.contr.Idx) :
    (dot_S1024x3_S1024x3_S1024x1024_1_1_0_0_n_n.rhsIdx j q 1).val = (q ⟨0, by decide⟩).val :=
  dot_S1024x3_S1024x3_S1024x1024_1_1_0_0_n_n.rhsIdx_val_of_single rfl j q

/-- The product of the two tiles, contracting the coordinate axis of both, is at `(p, l)` the inner product of row
    `p` of the first and row `l` of the second. -/
theorem inner_apply (a b : FVec Ideal S1024x3 .f32) (p l : Fin 1024) :
    inner a b (ix2 p l) = ∑ d : Fin 3, a (ix2 p d) * b (ix2 l d) := by
  unfold inner
  simp only [matmul]
  rw [Ideal.matmul_constant_zero_apply,
    ← Equiv.sum_comp (contrEquiv1 dot_S1024x3_S1024x3_S1024x1024_1_1_0_0_n_n 3 rfl rfl).symm]
  refine Finset.sum_congr rfl fun d _ => ?_
  have hk := contrEquiv1_symm_val dot_S1024x3_S1024x3_S1024x1024_1_1_0_0_n_n 3 rfl rfl d
  have el : dot_S1024x3_S1024x3_S1024x1024_1_1_0_0_n_n.lhsIdx (ix2 p l)
      ((contrEquiv1 dot_S1024x3_S1024x3_S1024x1024_1_1_0_0_n_n 3 rfl rfl).symm d) = ix2 p d :=
    funext fun c => Fin.ext (by
      match c with
      | ⟨0, _⟩ => exact lhs0 _ _
      | ⟨1, _⟩ => exact (lhs1 _ _).trans hk)
  have er : dot_S1024x3_S1024x3_S1024x1024_1_1_0_0_n_n.rhsIdx (ix2 p l)
      ((contrEquiv1 dot_S1024x3_S1024x3_S1024x1024_1_1_0_0_n_n 3 rfl rfl).symm d) = ix2 l d :=
    funext fun c => Fin.ext (by
      match c with
      | ⟨0, _⟩ => exact rhs0 _ _
      | ⟨1, _⟩ => exact (rhs1 _ _).trans hk)
  rw [el, er]

/-- The distance matrix at `(p, l)` is the expanded squared distance of row `p` of the first tile and row `l` of the
    second. -/
theorem distTile_apply (a b : FVec Ideal S1024x3 .f32) (p l : Fin 1024) :
    distTile a b (ix2 p l) = sqDist (fun d => a (ix2 p d)) (fun d => b (ix2 l d)) := by
  unfold distTile sqDist
  rw [subf_apply, addf_apply, mulf_apply, broadcast_apply, inner_apply,
    Cert.Keepdims.broadcastTo_a1_ab_apply, Cert.Keepdims.shapeCast_a_a1_apply, sqNorm_apply,
    broadcastTo_1b_ab_apply, shapeCast_a_1a_apply, sqNorm_apply]
  rfl

/-- The index a reduction along the second axis of the distance matrix inserts: row `p`, column `l`. -/
theorem lift_col (p l : Fin 1024) : reduces_S1024x1024_S1024.lift (ix1 p) l = ix2 p l :=
  funext fun d => Fin.ext (by match d with | ⟨0, _⟩ => rfl | ⟨1, _⟩ => rfl)

/-- Each row's minimum, from +∞, is the infimum of the row. -/
theorem rowMin_apply (a b : FVec Ideal S1024x3 .f32) (p : Fin 1024) :
    rowMin a b (ix1 p) = ⨅ l : Fin 1024, sqDist (fun d => a (ix2 p d)) (fun d => b (ix2 l d)) := by
  unfold rowMin
  refine (multiReduction_minimumf_eq_fold (distTile a b) 0x7F800000#32 reduces_S1024x1024_S1024 (.inl rfl) rfl (ix1 p)).trans ?_
  refine (reduces_S1024x1024_S1024.fold_filter_drop_single _ _ (distTile a b) (ix1 p)).trans ?_
  show (Finset.univ : Finset (Fin 1024)).fold min (Ideal.ofBits .f32 0x7F800000#32) _ = _
  rw [ofBits_inf]
  refine (Cert.TileMin.fold_min_top_eq_iInf (α := EReal)
    (fun l : Fin 1024 => distTile a b (reduces_S1024x1024_S1024.lift (ix1 p) l))).trans ?_
  exact iInf_congr fun l => by
    show distTile a b (reduces_S1024x1024_S1024.lift (ix1 p) l) = _
    rw [lift_col, distTile_apply]

/-- THE BODY AT A ROW: the stored value at query row `r` is the smaller of the running minimum there and the infimum
    over the key rows of the expanded squared distance. -/
theorem pay_apply (x0 x1 : Vec Ideal S1x1024x3 .f32) (xo : Vec Ideal S1x1024x1 .f32) (r : Fin 1024) :
    k0_pay2 (F := Ideal) x0 x1 xo (ix3 (0 : Fin 1) r (0 : Fin 1))
      = min (xo (ix3 (0 : Fin 1) r (0 : Fin 1)))
          (⨅ l : Fin 1024, sqDist (fun d => x0 (ix3 (0 : Fin 1) r d)) (fun d => x1 (ix3 (0 : Fin 1) l d))) := by
  rw [pay_eq, shapeCast_ab_1ab_apply, minimumf_apply, shapeCast_1ab_ab_apply, Cert.Keepdims.shapeCast_a_a1_apply,
    rowMin_apply]
  refine congrArg (min _) (iInf_congr fun l => ?_)
  congr 1 <;> funext d <;> exact shapeCast_1ab_ab_apply _ _ _ _

/-- The value stored at the first grid point of a row of tiles is +∞ at every row. -/
theorem init_apply (i : S1x1024x1.Idx) : k0_pay1 (F := Ideal) i = (⊤ : EReal) := by
  unfold k0_pay1
  show Ideal.ofBits .f32 0x7F800000#32 = _
  exact ofBits_inf

theorem init1_eq : @k1_pay1 Ideal _ = @k0_pay1 Ideal _ := rfl

/-- The same two readings for the second region's body, which stores the same functions. -/
theorem pay1_apply (x0 x1 : Vec Ideal S1x1024x3 .f32) (xo : Vec Ideal S1x1024x1 .f32) (r : Fin 1024) :
    k1_pay2 (F := Ideal) x0 x1 xo (ix3 (0 : Fin 1) r (0 : Fin 1))
      = min (xo (ix3 (0 : Fin 1) r (0 : Fin 1)))
          (⨅ l : Fin 1024, sqDist (fun d => x0 (ix3 (0 : Fin 1) r d)) (fun d => x1 (ix3 (0 : Fin 1) l d))) :=
  pay_apply x0 x1 xo r
theorem init1_apply (i : S1x1024x1.Idx) : k1_pay1 (F := Ideal) i = (⊤ : EReal) := init_apply i

end Cert.KernelIdeal.Tile

end
-- ==== Proof.Region0.lean ====
/-
  The first nearest-point region: what its result array holds when the region ends.

  The grid has 4 · 8 · 8 points; point `t` works on batch `t / 64`, on the tile of 1024 query rows number
  `t / 8 % 8` and on the tile of 1024 key rows number `t % 8`. The result block of a query tile stays in place while
  the eight key tiles go by: the first of the eight points resets it to +∞, every point replaces each row's entry by
  the smaller of it and the row's minimum over the current key tile, and the block is written back after the eighth.
  So after point `t` the entry of query row `r` is the infimum of the expanded squared distances from that query
  point to the key points `0 … 1024 · (t % 8 + 1) - 1` of the batch (`outsAt_row`, by induction on the point), after the
  eighth point of a group the infimum over all 8192 key points, and the blocks written back tile the result array:
  it ends holding, at `(b, n, 0)`, the distance from query point `n` of batch `b` to its nearest key point (`final`).
-/
import proofs.«103326_j35502199669085_1_alg».proof.Proof.Gen.KernelIdeal.Frame
import proofs.«103326_j35502199669085_1_alg».proof.Proof.TileDist
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx Cert.Chamfer Cert.KernelIdeal.Tile

theorem hz : (![0, 0, 0] : Fin 3 → Nat) = fun _ => 0 := funext fun a => by fin_cases a <;> rfl

/-! ## What one grid point leaves in the result block -/

section AnyValues

variable {F : FTy → Type} [FloatOps F]

/-- A point that is not the first of its group leaves, in the result block holding `xo`, the body's stored value of the
    query tile, the key tile and `xo`: its one store covers the block and its loads read the whole buffers. -/
theorem out_B (c : Dev nD) (i : grid0.Coords) (a3 : Memref sig .tc .vmem S1x1024x3 .f32) (h3 : a3.IsWhole)
    (a4 : Memref sig .tc .vmem S1x1024x3 .f32) (h4 : a4.IsWhole) (a5 : Memref sig .tc .vmem S1x1024x1 .f32) (h5 : a5.IsWhole)
    (hc : ¬cond0_0 i) (x0 x1 : Vec F S1x1024x3 .f32) (xo : Vec F S1x1024x1 .f32) :
    out0_B_2 c i a3 h3 a4 h4 a5 h5 hc x0 x1 xo = k0_pay2 x0 x1 xo := by
  unfold out0_B_2
  rw [View.read_writes_eq_canon _ _ _ (cover0_B_2 c i a3 h3 a4 h4 a5 h5 hc x0 x1 xo)]
  unfold kernelRun0_B
  dsimp only
  rw [View.canon_unit_zero hz]
  simp only [View.readAt_eq_ld, h3.read_unread, h4.read_unread, h5.read_unread, View.ld_unit_zero (S := S1x1024x3) hz,
    View.ld_unit_zero (S := S1x1024x1) hz]

/-- The first point of a group stores +∞ over the block, reads that back, and leaves the body's stored value of the
    two tiles and the block of +∞. -/
theorem out_A (c : Dev nD) (i : grid0.Coords) (a3 : Memref sig .tc .vmem S1x1024x3 .f32) (h3 : a3.IsWhole)
    (a4 : Memref sig .tc .vmem S1x1024x3 .f32) (h4 : a4.IsWhole) (a5 : Memref sig .tc .vmem S1x1024x1 .f32) (h5 : a5.IsWhole)
    (hc : cond0_0 i) (x0 x1 : Vec F S1x1024x3 .f32) :
    out0_A_2 c i a3 h3 a4 h4 a5 h5 hc x0 x1 = k0_pay2 x0 x1 k0_pay1 := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x1024x1) hz, View.readCov_unit_zero (S := S1x1024x1) _ hz]
  simp only [View.readAt_eq_ld, h3.read_unread, h4.read_unread, View.ld_unit_zero (S := S1x1024x3) hz,
    View.ld_unit_zero (S := S1x1024x1) hz]

end AnyValues

/-! ## The blocks a point reads -/

variable (V : (c : Dev nD) → (b : Ref sig .tc) → Buf (Elt Ideal) ((c : Thread nD τ).loc b))

/-- The query cloud and the key cloud as the region finds them. -/
abbrev Q (c : Dev nD) : Cloud := V c main_arg0
abbrev K (c : Dev nD) : Cloud := V c main_arg1

/-- The printed index maps over the grid: batch, query tile, key tile. -/
theorem idx_facts : ∀ t : Fin cfg0.N,
    win0_0.index t (0 : Fin 3) = t.val / 64 ∧ win0_0.index t (1 : Fin 3) = t.val / 8 % 8 ∧ win0_0.index t (2 : Fin 3) = 0
    ∧ win0_1.index t (0 : Fin 3) = t.val / 64 ∧ win0_1.index t (1 : Fin 3) = t.val % 8 ∧ win0_1.index t (2 : Fin 3) = 0
    ∧ win0_2.index t (0 : Fin 3) = t.val / 64 ∧ win0_2.index t (1 : Fin 3) = t.val / 8 % 8 ∧ win0_2.index t (2 : Fin 3) = 0 :=
  (by decide +kernel : ∀ t : Fin grid0.N, _)

/-- Row `r` of the query tile at point `t` is query point `1024 · (t / 8 % 8) + r` of batch `t / 64`. -/
theorem iblk_q (c : Dev nD) (t : Fin cfg0.N) (b : Fin 4) (row : Fin 8192) (r : Fin 1024) (hb : b.val = t.val / 64)
    (hrow : row.val = 1024 * (t.val / 8 % 8) + r.val) (d : Fin 3) :
    (iblk0 V c 0 t : Vec Ideal S1x1024x3 .f32) (ix3 (0 : Fin 1) r d) = pt (Q V c) b row d := by
  obtain ⟨e0, e1, e2, -⟩ := idx_facts t
  unfold iblk0 pt
  rw [View.read_apply]
  show V c main_arg0 _ = V c main_arg0 _
  congr 1
  funext a
  apply Fin.ext
  match a with
  | ⟨0, _⟩ => show win0_0.index t (0 : Fin 3) * 1 + 1 * 0 = b.val; omega
  | ⟨1, _⟩ => show win0_0.index t (1 : Fin 3) * 1024 + 1 * r.val = row.val; omega
  | ⟨2, _⟩ => show win0_0.index t (2 : Fin 3) * 3 + 1 * d.val = d.val; omega

/-- Row `l` of the key tile at point `t` is key point `1024 · (t % 8) + l` of batch `t / 64`. -/
theorem iblk_k (c : Dev nD) (t : Fin cfg0.N) (b : Fin 4) (col : Fin 8192) (l : Fin 1024) (hb : b.val = t.val / 64)
    (hcol : col.val = 1024 * (t.val % 8) + l.val) (d : Fin 3) :
    (iblk0 V c 1 t : Vec Ideal S1x1024x3 .f32) (ix3 (0 : Fin 1) l d) = pt (K V c) b col d := by
  obtain ⟨-, -, -, e0, e1, e2, -⟩ := idx_facts t
  unfold iblk0 pt
  rw [View.read_apply]
  show V c main_arg1 _ = V c main_arg1 _
  congr 1
  funext a
  apply Fin.ext
  match a with
  | ⟨0, _⟩ => show win0_1.index t (0 : Fin 3) * 1 + 1 * 0 = b.val; omega
  | ⟨1, _⟩ => show win0_1.index t (1 : Fin 3) * 1024 + 1 * l.val = col.val; omega
  | ⟨2, _⟩ => show win0_1.index t (2 : Fin 3) * 3 + 1 * d.val = d.val; omega

/-! ## The running minimum -/

/-- The distances from query point `row` of batch `b` to the key points of the batch. -/
abbrev dists (c : Dev nD) (b : Fin 4) (row : Fin 8192) : Fin 8192 → EReal := fun m => sqDist (pt (Q V c) b row) (pt (K V c) b m)

/-- One point's step: from the infimum over the key points before the point's key tile to the infimum over those and
    the tile's. -/
theorem step (c : Dev nD) (t : Fin cfg0.N) (b : Fin 4) (row : Fin 8192) (r : Fin 1024) (hb : b.val = t.val / 64)
    (hrow : row.val = 1024 * (t.val / 8 % 8) + r.val) (prev : EReal)
    (hprev : prev = Cert.TileMin.below (dists V c b row) (1024 * (t.val % 8))) :
    min prev (⨅ l : Fin 1024, sqDist (fun d => (iblk0 V c 0 t : Vec Ideal S1x1024x3 .f32) (ix3 (0 : Fin 1) r d))
        (fun d => (iblk0 V c 1 t : Vec Ideal S1x1024x3 .f32) (ix3 (0 : Fin 1) l d)))
      = Cert.TileMin.below (dists V c b row) (1024 * (t.val % 8 + 1)) := by
  subst hprev
  have hc : 1024 * (t.val % 8) + 1024 ≤ 8192 := by omega
  rw [show 1024 * (t.val % 8 + 1) = 1024 * (t.val % 8) + 1024 by omega]
  refine Cert.TileMin.below_add (dists V c b row) (1024 * (t.val % 8)) hc _ fun l => ?_
  show sqDist _ _ = sqDist _ _
  congr 1
  · funext d; exact iblk_q V c t b row r hb hrow d
  · funext d; exact iblk_k V c t b ⟨1024 * (t.val % 8) + l.val, _⟩ l hb rfl d

/-- THE INVARIANT: after the body at point `n` the result block's entry of row `r` is the infimum of the distances from
    its query point to the key points below `1024 · (n % 8 + 1)`. By induction on the point. -/
theorem outsAt_row (c : Dev nD) : ∀ (n : ℕ) (hn : n < cfg0.N) (b : Fin 4) (row : Fin 8192) (r : Fin 1024),
    b.val = n / 64 → row.val = 1024 * (n / 8 % 8) + r.val →
    outsAt0 V c n hn (ix3 (0 : Fin 1) r (0 : Fin 1)) = Cert.TileMin.below (dists V c b row) (1024 * (n % 8 + 1))
  | 0, hn, b, row, r, hb, hrow => by
    rw [outsAt0_A V c ⟨0, hn⟩ rfl, out_A, pay_apply, init_apply]
    exact step V c ⟨0, hn⟩ b row r hb hrow ⊤ (Cert.TileMin.below_zero _).symm
  | n + 1, hn, b, row, r, hb, hrow => by
    have hN : cfg0.N = 256 := N_0
    by_cases h0 : (n + 1) % 8 = 0
    · rw [outsAt0_A V c ⟨n + 1, hn⟩ h0, out_A, pay_apply, init_apply]
      refine step V c ⟨n + 1, hn⟩ b row r hb hrow ⊤ ?_
      show ⊤ = Cert.TileMin.below _ (1024 * ((n + 1) % 8))
      rw [h0]
      exact (Cert.TileMin.below_zero _).symm
    · rw [outsAt0_B V c ⟨n + 1, hn⟩ h0, out_B, pay_apply]
      refine step V c ⟨n + 1, hn⟩ b row r hb hrow _ ?_
      show outsAt0 V c n _ (ix3 (0 : Fin 1) r (0 : Fin 1)) = Cert.TileMin.below _ (1024 * ((n + 1) % 8))
      rw [outsAt_row c n (by omega) b row r (by omega) (by omega)]
      congr 1
      omega

/-! ## The result array -/

/-- The result array's contents when the region ends: at `(b, n, ·)` the distance from query point `n` of batch `b`
    to the nearest key point of the batch. -/
def G (c : Dev nD) : S4x8192x1.Idx → EReal := fun i =>
  nearest (Q V c) (K V c) ⟨(i 0).val, (i 0).isLt⟩ ⟨(i 1).val, (i 1).isLt⟩

/-- What a point that writes back (the eighth of its group) leaves in the block, entry by entry. -/
theorem flushed_at (c : Dev nD) (t : Fin cfg0.N) (hf : t.val % 8 = 7) (j : S1x1024x1.Idx) :
    outsAt0 V c t.val t.isLt j = G V c (((cfg0.win 2).blk t).view.emb j) := by
  obtain ⟨u, r, w, rfl⟩ : ∃ (u : Fin 1) (r : Fin 1024) (w : Fin 1), j = ix3 u r w := ⟨j 0, j 1, j 2, eq_ix3 j⟩
  obtain rfl : u = 0 := Subsingleton.elim _ _
  obtain rfl : w = 0 := Subsingleton.elim _ _
  obtain ⟨-, -, -, -, -, -, e0, e1, e2⟩ := idx_facts t
  have hN : cfg0.N = 256 := N_0
  have ht := t.isLt
  have hr := r.isLt
  have hb : win0_2.index t (0 : Fin 3) * 1 + 1 * 0 < 4 := by omega
  have hrow : win0_2.index t (1 : Fin 3) * 1024 + 1 * r.val < 8192 := by omega
  rw [outsAt_row V c t.val t.isLt ⟨_, hb⟩ ⟨_, hrow⟩ r (by show _ * 1 + 1 * 0 = _; omega) (by show _ * 1024 + 1 * r.val = _; omega),
    Cert.TileMin.below_of_le _ (by omega)]
  rfl

/-- What a point that writes back writes is its block of `G`. -/
theorem flushed_eq (c : Dev nD) (t : Fin cfg0.N) (hf : (cfg0.win 2).flush t = true) :
    (dat0 V c).flushed 2 t = ((cfg0.win 2).blk t).view.read (Elt Ideal) (G V c) := by
  show (cfg0.win 2).cut (grid0.coords t) ((dat0 V c).after 2 t) = _
  rw [after0_2]
  exact funext fun j => flushed_at V c t ((flush0_2 t).mp hf) j

/-- An index of the result array is in point `t`'s block iff each coordinate is in the block's range on its axis. -/
theorem mem_blk (t : Fin cfg0.N) (i : S4x8192x1.Idx) :
    i ∈ ((cfg0.win 2).blk t).view.set ↔ ∀ a : Fin 3, win0_2.index t a * S1x1024x1.size a ≤ (i a).val
      ∧ (i a).val < win0_2.index t a * S1x1024x1.size a + S1x1024x1.size a := by
  show i ∈ ((View.whole main_v0).slice (win0_2.rect t)).set ↔ _
  rw [View.set_slice_whole, Rect.mem_set_unit]
  exact Iff.rfl

/-- Every index of the result array is in the block of a point that writes back: the eighth point of the group of its
    batch and query tile. -/
theorem cover (i : S4x8192x1.Idx) : ∃ t : Fin cfg0.N, (cfg0.win 2).flush t = true ∧ i ∈ ((cfg0.win 2).blk t).view.set := by
  have hN : cfg0.N = 256 := N_0
  have h0 : (i 0).val < 4 := (i 0).isLt
  have h1 : (i 1).val < 8192 := (i 1).isLt
  have h2 : (i 2).val < 1 := (i 2).isLt
  obtain ⟨t, ht⟩ : ∃ t : Fin cfg0.N, t.val = 64 * (i 0).val + 8 * ((i 1).val / 1024) + 7 :=
    ⟨⟨64 * (i 0).val + 8 * ((i 1).val / 1024) + 7, lt_of_lt_of_eq (by omega) hN.symm⟩, rfl⟩
  refine ⟨t, (flush0_2 t).mpr (by omega), ?_⟩
  rw [mem_blk]
  obtain ⟨-, -, -, -, -, -, e0, e1, e2⟩ := idx_facts t
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- THE RESULT ARRAY when the region ends. -/
theorem final (c : Dev nD) : (dat0 V c).arrAt 2 cfg0.N = G V c :=
  (dat0 V c).arrAt_eq_of_cover 2 (G V c) (flushed_eq V c) (cover)

end Cert.KernelIdeal.Region0

end
-- ==== Proof.Region1.lean ====
/-
  The second nearest-point region: what its result array holds when the region ends.

  The same kernel as the first region with the two clouds exchanged: its query points are the second argument's, its
  key points the first argument's.

  The grid has 4 · 8 · 8 points; point `t` works on batch `t / 64`, on the tile of 1024 query rows number
  `t / 8 % 8` and on the tile of 1024 key rows number `t % 8`. The result block of a query tile stays in place while
  the eight key tiles go by: the first of the eight points resets it to +∞, every point replaces each row's entry by
  the smaller of it and the row's minimum over the current key tile, and the block is written back after the eighth.
  So after point `t` the entry of query row `r` is the infimum of the expanded squared distances from that query
  point to the key points `0 … 1024 · (t % 8 + 1) - 1` of the batch (`outsAt_row`, by induction on the point), after the
  eighth point of a group the infimum over all 8192 key points, and the blocks written back tile the result array:
  it ends holding, at `(b, n, 0)`, the distance from query point `n` of batch `b` to its nearest key point (`final`).
-/
import proofs.«103326_j35502199669085_1_alg».proof.Proof.Gen.KernelIdeal.Frame
import proofs.«103326_j35502199669085_1_alg».proof.Proof.TileDist
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.Chamfer Cert.KernelIdeal.Tile

theorem hz : (![0, 0, 0] : Fin 3 → Nat) = fun _ => 0 := funext fun a => by fin_cases a <;> rfl

/-! ## What one grid point leaves in the result block -/

section AnyValues

variable {F : FTy → Type} [FloatOps F]

/-- A point that is not the first of its group leaves, in the result block holding `xo`, the body's stored value of the
    query tile, the key tile and `xo`: its one store covers the block and its loads read the whole buffers. -/
theorem out_B (c : Dev nD) (i : grid1.Coords) (a3 : Memref sig .tc .vmem S1x1024x3 .f32) (h3 : a3.IsWhole)
    (a4 : Memref sig .tc .vmem S1x1024x3 .f32) (h4 : a4.IsWhole) (a5 : Memref sig .tc .vmem S1x1024x1 .f32) (h5 : a5.IsWhole)
    (hc : ¬cond1_0 i) (x0 x1 : Vec F S1x1024x3 .f32) (xo : Vec F S1x1024x1 .f32) :
    out1_B_2 c i a3 h3 a4 h4 a5 h5 hc x0 x1 xo = k1_pay2 x0 x1 xo := by
  unfold out1_B_2
  rw [View.read_writes_eq_canon _ _ _ (cover1_B_2 c i a3 h3 a4 h4 a5 h5 hc x0 x1 xo)]
  unfold kernelRun1_B
  dsimp only
  rw [View.canon_unit_zero hz]
  simp only [View.readAt_eq_ld, h3.read_unread, h4.read_unread, h5.read_unread, View.ld_unit_zero (S := S1x1024x3) hz,
    View.ld_unit_zero (S := S1x1024x1) hz]

/-- The first point of a group stores +∞ over the block, reads that back, and leaves the body's stored value of the
    two tiles and the block of +∞. -/
theorem out_A (c : Dev nD) (i : grid1.Coords) (a3 : Memref sig .tc .vmem S1x1024x3 .f32) (h3 : a3.IsWhole)
    (a4 : Memref sig .tc .vmem S1x1024x3 .f32) (h4 : a4.IsWhole) (a5 : Memref sig .tc .vmem S1x1024x1 .f32) (h5 : a5.IsWhole)
    (hc : cond1_0 i) (x0 x1 : Vec F S1x1024x3 .f32) :
    out1_A_2 c i a3 h3 a4 h4 a5 h5 hc x0 x1 = k1_pay2 x0 x1 k1_pay1 := by
  unfold out1_A_2
  rw [View.read_writes_eq_canon _ _ _ (cover1_A_2 c i a3 h3 a4 h4 a5 h5 hc x0 x1)]
  unfold kernelRun1_A
  dsimp only
  sl_unfold_words
  rw [View.canon_cons_unit_zero (S := S1x1024x1) hz, View.readCov_unit_zero (S := S1x1024x1) _ hz]
  simp only [View.readAt_eq_ld, h3.read_unread, h4.read_unread, View.ld_unit_zero (S := S1x1024x3) hz,
    View.ld_unit_zero (S := S1x1024x1) hz]

end AnyValues

/-! ## The blocks a point reads -/

variable (V : (c : Dev nD) → (b : Ref sig .tc) → Buf (Elt Ideal) ((c : Thread nD τ).loc b))

/-- The query cloud and the key cloud as the region finds them. -/
abbrev Q (c : Dev nD) : Cloud := V c main_arg1
abbrev K (c : Dev nD) : Cloud := V c main_arg0

/-- The printed index maps over the grid: batch, query tile, key tile. -/
theorem idx_facts : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = t.val % 8 ∧ win1_1.index t (2 : Fin 3) = 0
    ∧ win1_2.index t (0 : Fin 3) = t.val / 64 ∧ win1_2.index t (1 : Fin 3) = t.val / 8 % 8 ∧ win1_2.index t (2 : Fin 3) = 0 :=
  (by decide +kernel : ∀ t : Fin grid1.N, _)

/-- Row `r` of the query tile at point `t` is query point `1024 · (t / 8 % 8) + r` of batch `t / 64`. -/
theorem iblk_q (c : Dev nD) (t : Fin cfg1.N) (b : Fin 4) (row : Fin 8192) (r : Fin 1024) (hb : b.val = t.val / 64)
    (hrow : row.val = 1024 * (t.val / 8 % 8) + r.val) (d : Fin 3) :
    (iblk1 V c 0 t : Vec Ideal S1x1024x3 .f32) (ix3 (0 : Fin 1) r d) = pt (Q V c) b row d := by
  obtain ⟨e0, e1, e2, -⟩ := idx_facts t
  unfold iblk1 pt
  rw [View.read_apply]
  show V c main_arg1 _ = V c main_arg1 _
  congr 1
  funext a
  apply Fin.ext
  match a with
  | ⟨0, _⟩ => show win1_0.index t (0 : Fin 3) * 1 + 1 * 0 = b.val; omega
  | ⟨1, _⟩ => show win1_0.index t (1 : Fin 3) * 1024 + 1 * r.val = row.val; omega
  | ⟨2, _⟩ => show win1_0.index t (2 : Fin 3) * 3 + 1 * d.val = d.val; omega

/-- Row `l` of the key tile at point `t` is key point `1024 · (t % 8) + l` of batch `t / 64`. -/
theorem iblk_k (c : Dev nD) (t : Fin cfg1.N) (b : Fin 4) (col : Fin 8192) (l : Fin 1024) (hb : b.val = t.val / 64)
    (hcol : col.val = 1024 * (t.val % 8) + l.val) (d : Fin 3) :
    (iblk1 V c 1 t : Vec Ideal S1x1024x3 .f32) (ix3 (0 : Fin 1) l d) = pt (K V c) b col d := by
  obtain ⟨-, -, -, e0, e1, e2, -⟩ := idx_facts t
  unfold iblk1 pt
  rw [View.read_apply]
  show V c main_arg0 _ = V c main_arg0 _
  congr 1
  funext a
  apply Fin.ext
  match a with
  | ⟨0, _⟩ => show win1_1.index t (0 : Fin 3) * 1 + 1 * 0 = b.val; omega
  | ⟨1, _⟩ => show win1_1.index t (1 : Fin 3) * 1024 + 1 * l.val = col.val; omega
  | ⟨2, _⟩ => show win1_1.index t (2 : Fin 3) * 3 + 1 * d.val = d.val; omega

/-! ## The running minimum -/

/-- The distances from query point `row` of batch `b` to the key points of the batch. -/
abbrev dists (c : Dev nD) (b : Fin 4) (row : Fin 8192) : Fin 8192 → EReal := fun m => sqDist (pt (Q V c) b row) (pt (K V c) b m)

/-- One point's step: from the infimum over the key points before the point's key tile to the infimum over those and
    the tile's. -/
theorem step (c : Dev nD) (t : Fin cfg1.N) (b : Fin 4) (row : Fin 8192) (r : Fin 1024) (hb : b.val = t.val / 64)
    (hrow : row.val = 1024 * (t.val / 8 % 8) + r.val) (prev : EReal)
    (hprev : prev = Cert.TileMin.below (dists V c b row) (1024 * (t.val % 8))) :
    min prev (⨅ l : Fin 1024, sqDist (fun d => (iblk1 V c 0 t : Vec Ideal S1x1024x3 .f32) (ix3 (0 : Fin 1) r d))
        (fun d => (iblk1 V c 1 t : Vec Ideal S1x1024x3 .f32) (ix3 (0 : Fin 1) l d)))
      = Cert.TileMin.below (dists V c b row) (1024 * (t.val % 8 + 1)) := by
  subst hprev
  have hc : 1024 * (t.val % 8) + 1024 ≤ 8192 := by omega
  rw [show 1024 * (t.val % 8 + 1) = 1024 * (t.val % 8) + 1024 by omega]
  refine Cert.TileMin.below_add (dists V c b row) (1024 * (t.val % 8)) hc _ fun l => ?_
  show sqDist _ _ = sqDist _ _
  congr 1
  · funext d; exact iblk_q V c t b row r hb hrow d
  · funext d; exact iblk_k V c t b ⟨1024 * (t.val % 8) + l.val, _⟩ l hb rfl d

/-- THE INVARIANT: after the body at point `n` the result block's entry of row `r` is the infimum of the distances from
    its query point to the key points below `1024 · (n % 8 + 1)`. By induction on the point. -/
theorem outsAt_row (c : Dev nD) : ∀ (n : ℕ) (hn : n < cfg1.N) (b : Fin 4) (row : Fin 8192) (r : Fin 1024),
    b.val = n / 64 → row.val = 1024 * (n / 8 % 8) + r.val →
    outsAt1 V c n hn (ix3 (0 : Fin 1) r (0 : Fin 1)) = Cert.TileMin.below (dists V c b row) (1024 * (n % 8 + 1))
  | 0, hn, b, row, r, hb, hrow => by
    rw [outsAt1_A V c ⟨0, hn⟩ rfl, out_A, pay1_apply, init1_apply]
    exact step V c ⟨0, hn⟩ b row r hb hrow ⊤ (Cert.TileMin.below_zero _).symm
  | n + 1, hn, b, row, r, hb, hrow => by
    have hN : cfg1.N = 256 := N_1
    by_cases h0 : (n + 1) % 8 = 0
    · rw [outsAt1_A V c ⟨n + 1, hn⟩ h0, out_A, pay1_apply, init1_apply]
      refine step V c ⟨n + 1, hn⟩ b row r hb hrow ⊤ ?_
      show ⊤ = Cert.TileMin.below _ (1024 * ((n + 1) % 8))
      rw [h0]
      exact (Cert.TileMin.below_zero _).symm
    · rw [outsAt1_B V c ⟨n + 1, hn⟩ h0, out_B, pay1_apply]
      refine step V c ⟨n + 1, hn⟩ b row r hb hrow _ ?_
      show outsAt1 V c n _ (ix3 (0 : Fin 1) r (0 : Fin 1)) = Cert.TileMin.below _ (1024 * ((n + 1) % 8))
      rw [outsAt_row c n (by omega) b row r (by omega) (by omega)]
      congr 1
      omega

/-! ## The result array -/

/-- The result array's contents when the region ends: at `(b, n, ·)` the distance from query point `n` of batch `b`
    to the nearest key point of the batch. -/
def G (c : Dev nD) : S4x8192x1.Idx → EReal := fun i =>
  nearest (Q V c) (K V c) ⟨(i 0).val, (i 0).isLt⟩ ⟨(i 1).val, (i 1).isLt⟩

/-- What a point that writes back (the eighth of its group) leaves in the block, entry by entry. -/
theorem flushed_at (c : Dev nD) (t : Fin cfg1.N) (hf : t.val % 8 = 7) (j : S1x1024x1.Idx) :
    outsAt1 V c t.val t.isLt j = G V c (((cfg1.win 2).blk t).view.emb j) := by
  obtain ⟨u, r, w, rfl⟩ : ∃ (u : Fin 1) (r : Fin 1024) (w : Fin 1), j = ix3 u r w := ⟨j 0, j 1, j 2, eq_ix3 j⟩
  obtain rfl : u = 0 := Subsingleton.elim _ _
  obtain rfl : w = 0 := Subsingleton.elim _ _
  obtain ⟨-, -, -, -, -, -, e0, e1, e2⟩ := idx_facts t
  have hN : cfg1.N = 256 := N_1
  have ht := t.isLt
  have hr := r.isLt
  have hb : win1_2.index t (0 : Fin 3) * 1 + 1 * 0 < 4 := by omega
  have hrow : win1_2.index t (1 : Fin 3) * 1024 + 1 * r.val < 8192 := by omega
  rw [outsAt_row V c t.val t.isLt ⟨_, hb⟩ ⟨_, hrow⟩ r (by show _ * 1 + 1 * 0 = _; omega) (by show _ * 1024 + 1 * r.val = _; omega),
    Cert.TileMin.below_of_le _ (by omega)]
  rfl

/-- What a point that writes back writes is its block of `G`. -/
theorem flushed_eq (c : Dev nD) (t : Fin cfg1.N) (hf : (cfg1.win 2).flush t = true) :
    (dat1 V c).flushed 2 t = ((cfg1.win 2).blk t).view.read (Elt Ideal) (G V c) := by
  show (cfg1.win 2).cut (grid1.coords t) ((dat1 V c).after 2 t) = _
  rw [after1_2]
  exact funext fun j => flushed_at V c t ((flush1_2 t).mp hf) j

/-- An index of the result array is in point `t`'s block iff each coordinate is in the block's range on its axis. -/
theorem mem_blk (t : Fin cfg1.N) (i : S4x8192x1.Idx) :
    i ∈ ((cfg1.win 2).blk t).view.set ↔ ∀ a : Fin 3, win1_2.index t a * S1x1024x1.size a ≤ (i a).val
      ∧ (i a).val < win1_2.index t a * S1x1024x1.size a + S1x1024x1.size a := by
  show i ∈ ((View.whole main_v1).slice (win1_2.rect t)).set ↔ _
  rw [View.set_slice_whole, Rect.mem_set_unit]
  exact Iff.rfl

/-- Every index of the result array is in the block of a point that writes back: the eighth point of the group of its
    batch and query tile. -/
theorem cover (i : S4x8192x1.Idx) : ∃ t : Fin cfg1.N, (cfg1.win 2).flush t = true ∧ i ∈ ((cfg1.win 2).blk t).view.set := by
  have hN : cfg1.N = 256 := N_1
  have h0 : (i 0).val < 4 := (i 0).isLt
  have h1 : (i 1).val < 8192 := (i 1).isLt
  have h2 : (i 2).val < 1 := (i 2).isLt
  obtain ⟨t, ht⟩ : ∃ t : Fin cfg1.N, t.val = 64 * (i 0).val + 8 * ((i 1).val / 1024) + 7 :=
    ⟨⟨64 * (i 0).val + 8 * ((i 1).val / 1024) + 7, lt_of_lt_of_eq (by omega) hN.symm⟩, rfl⟩
  refine ⟨t, (flush1_2 t).mpr (by omega), ?_⟩
  rw [mem_blk]
  obtain ⟨-, -, -, -, -, -, e0, e1, e2⟩ := idx_facts t
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1 ≤ (i 2).val ∧ (i 2).val < win1_2.index t (2 : Fin 3) * 1 + 1; omega

/-- THE RESULT ARRAY when the region ends. -/
theorem final (c : Dev nD) : (dat1 V c).arrAt 2 cfg1.N = G V c :=
  (dat1 V c).arrAt_eq_of_cover 2 (G V c) (flushed_eq V c) (cover)

end Cert.KernelIdeal.Region1

end
-- ==== Proof.Tail.lean ====
/-
  The kernel program's result as a function of the two clouds.

  After the two regions the host clamps each nearest-distance array from below at 1e-10, takes its mean over the
  4 · 8192 entries, adds the two means and scales by 1000 (`loss`). The first region's array holds, for each point of
  the first cloud, the distance to the nearest point of the second (`Region0.final`); the second region's, for each
  point of the second cloud, the distance to the nearest point of the first (`Region1.final`); neither region changes
  the other's array or the arguments. So the result is `loss` of the two nearest-distance arrays of the launch contents.
-/
import proofs.«103326_j35502199669085_1_alg».proof.Proof.Gen.KernelIdeal.Frame
import proofs.«103326_j35502199669085_1_alg».proof.Proof.Region0
import proofs.«103326_j35502199669085_1_alg».proof.Proof.Region1
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Tail

open Cert.KernelIdeal Cert.KernelIdeal.Gen Idealize.ShloMosaic.ValueIdx Cert.Chamfer

/-- The mean of an array of 4 · 8192 entries clamped from below at 1e-10. -/
def clampMean (a : FVec Ideal S4x8192 .f32) : FVec Ideal S_ .f32 :=
  Host.divf (F := Ideal)
    (Host.reduceAdd (F := Ideal)
      (maximumf a (broadcastInDim S4x8192 ![] bcast_S_S4x8192 (constant (F := Ideal) S_ .f32 0x2EDBE6FF#32)))
      (constant (F := Ideal) S_ .f32 0x00000000#32) reducesTo_S4x8192_S_d0_1 h_S_)
    (constant (F := Ideal) S_ .f32 0x47000000#32)

/-- The loss: the two clamped means added, times 1000. -/
def loss (rows cols : FVec Ideal S4x8192 .f32) : FVec Ideal S_ .f32 :=
  mulf (addf (clampMean cols) (clampMean rows)) (constant (F := Ideal) S_ .f32 0x447A0000#32)

/-- The nearest-distance array of a cloud `q` against a cloud `k`, indexed by batch and point. -/
def nearestArr (q k : Cloud) : FVec Ideal S4x8192 .f32 := fun j =>
  nearest q k ⟨(j 0).val, (j 0).isLt⟩ ⟨(j 1).val, (j 1).isLt⟩

theorem nearestArr_apply (q k : Cloud) (b : Fin 4) (n : Fin 8192) : nearestArr q k (ix2 b n) = nearest q k b n := rfl

variable (m : (ℓ : Loc nD τ sig) → Buf (Elt Ideal) ℓ) (ρ : Dev nD → PrngReg)

/-- The host operations' value at the result buffer, of the two regions' arrays. -/
theorem W3_result (c : Dev nD) : W3 m ρ c (Proc.devRef .tc main_v13)
    = loss (shapeCast S4x8192 (W2 m ρ c (Proc.devRef .tc main_v0)) shapeCasts_S4x8192x1_S4x8192)
        (shapeCast S4x8192 (W2 m ρ c (Proc.devRef .tc main_v1)) shapeCasts_S4x8192x1_S4x8192) := by
  show StableHlo.after hostOps2 (W2 m ρ c) (Proc.devRef .tc main_v13) = _
  after_results
  rfl

/-- A `[4, 8192, 1]` array with its unit axis dropped reads, at `(b, n)`, the array at `(b, n, 0)`. -/
theorem squeeze_apply (x : S4x8192x1.Idx → EReal) (b : Fin 4) (n : Fin 8192) :
    shapeCast S4x8192 x shapeCasts_S4x8192x1_S4x8192 (ix2 b n) = x (ix3 b n (0 : Fin 1)) :=
  shapeCast_apply x shapeCasts_S4x8192x1_S4x8192 _ _ (by
    rw [Shape.rowMajor_val_three, Shape.rowMajor_val_two]
    show (b.val * 8192 + n.val) * 1 + 0 = b.val * 8192 + n.val
    omega)

/-- The first region's array with its unit axis dropped is the nearest-distance array of its two clouds. -/
theorem squeeze_G0 (V : (c : Dev nD) → (b : Ref sig .tc) → Buf (Elt Ideal) ((c : Thread nD τ).loc b)) (c : Dev nD) :
    shapeCast S4x8192 (Region0.G V c) shapeCasts_S4x8192x1_S4x8192 = nearestArr (Region0.Q V c) (Region0.K V c) := by
  funext j
  obtain ⟨b, n, rfl⟩ : ∃ (b : Fin 4) (n : Fin 8192), j = ix2 b n := ⟨j 0, j 1, eq_ix2 j⟩
  rw [squeeze_apply]
  rfl

theorem squeeze_G1 (V : (c : Dev nD) → (b : Ref sig .tc) → Buf (Elt Ideal) ((c : Thread nD τ).loc b)) (c : Dev nD) :
    shapeCast S4x8192 (Region1.G V c) shapeCasts_S4x8192x1_S4x8192 = nearestArr (Region1.Q V c) (Region1.K V c) := by
  funext j
  obtain ⟨b, n, rfl⟩ : ∃ (b : Fin 4) (n : Fin 8192), j = ix2 b n := ⟨j 0, j 1, eq_ix2 j⟩
  rw [squeeze_apply]
  rfl

/-- The first region's result array is still in place after the second region, which does not write it. -/
theorem W2_v0 (c : Dev nD) : W2 m ρ c (Proc.devRef .tc main_v0) = Region0.G (V0 m ρ) c :=
  calc W2 m ρ c (Proc.devRef .tc main_v0)
    _ = W1 m ρ c (Proc.devRef .tc main_v0) := W2_of_ne m ρ c main_v0
          (by decide : ∀ w : Fin 3, Pipeline.arrRef spec1 w ≠ main_v0)
    _ = (dat0 (V0 m ρ) c).arrAt 2 cfg0.N := W1_arr m ρ c 2
    _ = Region0.G (V0 m ρ) c := Region0.final (V0 m ρ) c

theorem W2_v1 (c : Dev nD) : W2 m ρ c (Proc.devRef .tc main_v1) = Region1.G (V1 m ρ) c :=
  (W2_arr m ρ c 2).trans (Region1.final (V1 m ρ) c)

/-- The second region finds the two arguments as launched: the first region reads them and leaves them. -/
theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-- THE RESULT: the loss of the nearest-distance array of the first cloud against the second and of the second against
    the first. -/
theorem result_eq (c : Dev nD) : W3 m ρ c (Proc.devRef .tc main_v13)
    = loss (nearestArr (m ((c : Thread nD τ).loc main_arg0)) (m ((c : Thread nD τ).loc main_arg1)))
        (nearestArr (m ((c : Thread nD τ).loc main_arg1)) (m ((c : Thread nD τ).loc main_arg0))) := by
  rw [W3_result, W2_v0, W2_v1, squeeze_G0, squeeze_G1]
  show loss (nearestArr (V0 m ρ c main_arg0) (V0 m ρ c main_arg1)) (nearestArr (V1 m ρ c main_arg1) (V1 m ρ c main_arg0)) = _
  rw [V1_arg0, V1_arg1]

end Cert.KernelIdeal.Tail

end
-- ==== Proof.RefMin.lean ====
/-
  The reference program's two row-minima, read at an index.

  From two clouds x0, x1 of four batches of 8192 points with three coordinates the reference forms, for every batch b
  and every pair of points (n, m), the expanded squared distance
      v12[b, n, m] = (Σ_d x0[b,n,d]·x0[b,n,d] + Σ_d x1[b,m,d]·x1[b,m,d]) − 2 · Σ_d x0[b,n,d]·x1[b,m,d]
  (the two squared norms are sums started at the zero word, broadcast along the other point's axis; the factor 2 is the
  f32 word 0x40000000; the cross term is a contraction over d), and then takes two minima of it, each a reduction with a
  min body started at +∞ (the f32 word 0x7F800000):
      v18[b, n] = min over m of v12[b, n, m]      v13[b, m] = min over n of v12[b, n, m].

  At the ideal instance (values are extended reals, operations exact) a reduction over one axis with a commutative and
  associative body is, at a result index, the fold of the body from the initial value over that axis's coordinates of
  the operand at the result index with the coordinate inserted. The initial word is the top element, and a fold of min
  from the top element over a finite type is the infimum of the family. So v18[b, n] is the infimum over m of the
  squared distance from point n of x0 to point m of x1: the specification's nearest x0 x1 b n. For v13 the infimum
  runs over the first cloud's points; the expanded squared distance is symmetric in its two points, so v13[b, m] is
  nearest x1 x0 b m.
-/
import proofs.«103326_j35502199669085_1_alg».proof.Proof.Gen.ReferenceIdeal.Read
import proofs.«103326_j35502199669085_1_alg».proof.Proof.Spec
import proofs.«103326_j35502199669085_1_alg».proof.Proof.LibTileMin
import Idealize.ShloMosaic.PureOps.Reduce
import Idealize.ShloMosaic.PureOps.Ideal.Laws
import Idealize.ShloMosaic.Lib.ValueIdx

noncomputable section

namespace Cert.ReferenceIdeal.RefMin

open Cert.ReferenceIdeal Cert.ReferenceIdeal.Gen Idealize.ShloMosaic Idealize.ShloMosaic.ValueIdx Cert.Chamfer
open scoped BigOperators

/-- The difference stage at (b, n, m) is the expanded squared distance of point n of the first cloud and point m of the
    second, both of batch b: each stage is read at its index, the broadcasts' and the contraction's index functions
    at (b, n, m) are (b, n, d) and (b, m, d), and the zero word the two norm sums start from is 0. -/
theorem val_main_v12_ix3 (x0 x1 : (⟨S4x8192x3, .f32⟩ : BufTy).Contents (Elt Ideal)) (b : Fin 4) (n m : Fin 8192) :
    Cert.ReferenceIdeal.Read.val_main_v12 (F := Ideal) x0 x1 (ix3 b n m) = sqDist (pt x0 b n) (pt x1 b m) := by
  rw [Read.val_main_v12_apply, Read.val_main_v9_apply, Read.val_main_v7_apply, Read.val_main_v5_apply,
    Read.val_main_v1_apply, Read.val_main_v8_apply, Read.val_main_v6_apply, Read.val_main_v3_apply,
    Read.val_main_v11_apply, Read.val_main_v10_apply, Read.val_main_v4_apply]
  have e1 : ∀ k : Fin 3, Read.idx_main_v1 (Read.idx_main_v5 (Read.idx_main_v7 (ix3 b n m))) k = ix3 b n k := fun k =>
    funext fun a => Fin.ext (by match a with | ⟨0, _⟩ => rfl | ⟨1, _⟩ => rfl | ⟨2, _⟩ => rfl)
  have e3 : ∀ k : Fin 3, Read.idx_main_v3 (Read.idx_main_v6 (Read.idx_main_v8 (ix3 b n m))) k = ix3 b m k := fun k =>
    funext fun a => Fin.ext (by match a with | ⟨0, _⟩ => rfl | ⟨1, _⟩ => rfl | ⟨2, _⟩ => rfl)
  have el : ∀ k : Fin 3, Read.lidx_main_v4 (ix3 b n m) k = ix3 b n k := fun k =>
    funext fun a => Fin.ext (by match a with | ⟨0, _⟩ => rfl | ⟨1, _⟩ => rfl | ⟨2, _⟩ => rfl)
  have er : ∀ k : Fin 3, Read.ridx_main_v4 (ix3 b n m) k = ix3 b m k := fun k =>
    funext fun a => Fin.ext (by match a with | ⟨0, _⟩ => rfl | ⟨1, _⟩ => rfl | ⟨2, _⟩ => rfl)
  simp only [e1, e3, el, er, Read.val_main_v0_apply, Read.val_main_v2_apply, Read.val_main_cst_apply,
    Read.val_main_cst_0_apply, Read.val_main_cst_1_apply, Ideal.ofBits_def, Ideal.ofBits_zero_f32, zero_add,
    Ideal.addf_def, Ideal.subf_def, Ideal.mulf_def]
  rfl

/-- The word 0x7F800000 is +∞: the top element of the extended reals. -/
theorem ofBits_inf_f32 : Ideal.ofBits .f32 0x7F800000#32 = (⊤ : EReal) := by simp [Ideal.ofBits, Ideal.ieee]

/-- The minimum over the second cloud's points (axis 2): at (b, n) it is the infimum over m of the squared distance
    from point n of the first cloud to point m of the second. -/
theorem val_main_v18_apply (x0 x1 : (⟨S4x8192x3, .f32⟩ : BufTy).Contents (Elt Ideal)) (b : Fin 4) (n : Fin 8192) :
    Cert.ReferenceIdeal.Read.val_main_v18 (F := Ideal) x0 x1 (ix2 b n) = Cert.Chamfer.nearest x0 x1 b n := by
  have h : S4x8192x8192.Reduces [(2 : Fin S4x8192x8192.rank)] S4x8192 := by decide
  have hl : ∀ m : Fin 8192, h.lift (ix2 b n) m = ix3 b n m := fun m =>
    funext fun d => Fin.ext (by match d with | ⟨0, _⟩ => rfl | ⟨1, _⟩ => rfl | ⟨2, _⟩ => rfl)
  have hi : Read.val_main_cst_6 (F := Ideal) (Shape.Idx.first h_S_) = (⊤ : EReal) := by
    rw [Read.val_main_cst_6_apply]; exact ofBits_inf_f32
  unfold Read.val_main_v18
  rw [Host.reduce_eq_fold_single _ _ _ reducesTo_S4x8192x8192_S4x8192_d2 h h_S_, hi]
  show (Finset.univ : Finset (Fin 8192)).fold min (⊤ : EReal)
      (fun m => Read.val_main_v12 (F := Ideal) x0 x1 (h.lift (ix2 b n) m)) = _
  refine (Cert.TileMin.fold_min_top_eq_iInf (α := EReal) (ι := Fin 8192)
    (fun m => Read.val_main_v12 (F := Ideal) x0 x1 (h.lift (ix2 b n) m))).trans ?_
  unfold Cert.Chamfer.nearest
  exact iInf_congr fun m => by rw [hl, val_main_v12_ix3]

/-- The minimum over the first cloud's points (axis 1): at (b, m) it is the infimum over n of the squared distance
    from point n of the first cloud to point m of the second, which is the squared distance from point m of the second
    to point n of the first. -/
theorem val_main_v13_apply (x0 x1 : (⟨S4x8192x3, .f32⟩ : BufTy).Contents (Elt Ideal)) (b : Fin 4) (m : Fin 8192) :
    Cert.ReferenceIdeal.Read.val_main_v13 (F := Ideal) x0 x1 (ix2 b m) = Cert.Chamfer.nearest x1 x0 b m := by
  have h : S4x8192x8192.Reduces [(1 : Fin S4x8192x8192.rank)] S4x8192 := by decide
  have hl : ∀ n : Fin 8192, h.lift (ix2 b m) n = ix3 b n m := fun n =>
    funext fun d => Fin.ext (by match d with | ⟨0, _⟩ => rfl | ⟨1, _⟩ => rfl | ⟨2, _⟩ => rfl)
  have hi : Read.val_main_cst_2 (F := Ideal) (Shape.Idx.first h_S_) = (⊤ : EReal) := by
    rw [Read.val_main_cst_2_apply]; exact ofBits_inf_f32
  unfold Read.val_main_v13
  rw [Host.reduce_eq_fold_single _ _ _ reducesTo_S4x8192x8192_S4x8192_d1 h h_S_, hi]
  show (Finset.univ : Finset (Fin 8192)).fold min (⊤ : EReal)
      (fun n => Read.val_main_v12 (F := Ideal) x0 x1 (h.lift (ix2 b m) n)) = _
  refine (Cert.TileMin.fold_min_top_eq_iInf (α := EReal) (ι := Fin 8192)
    (fun n => Read.val_main_v12 (F := Ideal) x0 x1 (h.lift (ix2 b m) n))).trans ?_
  unfold Cert.Chamfer.nearest
  exact iInf_congr fun n => by rw [hl, val_main_v12_ix3, sqDist_comm]

end Cert.ReferenceIdeal.RefMin

end
-- ==== Proof.Bridge.lean ====
/-
  The two programs compute one number.

  The reference's last operations are the kernel program's host tail: clamp each array of nearest distances from below
  at 1e-10, average, add the two averages, scale by 1000 (`ref_eq`: the reference's result is `loss` of its two
  minima, by unfolding). Its minimum over the second cloud's points is the nearest-distance array of the first cloud
  against the second, its minimum over the first cloud's points that of the second against the first (`rows_eq`,
  `cols_eq`) — the arrays the kernel's two regions leave. So from memories that agree on the two clouds both programs
  end with the same result. No law is used beyond the symmetry of the expanded squared distance, which holds for all
  extended reals: the precondition is never opened.
-/
import proofs.«103326_j35502199669085_1_alg».proof.Defs
import proofs.«103326_j35502199669085_1_alg».proof.Proof.Gen.Kernel.Frame
import proofs.«103326_j35502199669085_1_alg».proof.Proof.Gen.KernelIdeal.Frame
import proofs.«103326_j35502199669085_1_alg».proof.Proof.Gen.ReferenceIdeal.Run
import proofs.«103326_j35502199669085_1_alg».proof.Proof.Gen.ReferenceIdeal.Read
import proofs.«103326_j35502199669085_1_alg».proof.Proof.Gen.Pre_finite_inputs
import proofs.«103326_j35502199669085_1_alg».proof.Proof.Run
import proofs.«103326_j35502199669085_1_alg».proof.Proof.Tail
import proofs.«103326_j35502199669085_1_alg».proof.Proof.RefMin

noncomputable section

open Idealize.ShloMosaic Idealize.ShloMosaic.TcCoe Idealize.SL.Sem

namespace Cert.Proof.Bridge

open Idealize.ShloMosaic.ValueIdx Cert.Chamfer Cert.KernelIdeal.Tail

/-- The reference's result is the loss of its two minima. -/
theorem ref_eq (x0 x1 : (⟨Cert.ReferenceIdeal.S4x8192x3, .f32⟩ : BufTy).Contents (Elt Ideal)) :
    Cert.ReferenceIdeal.Read.val_main_v24 (F := Ideal) x0 x1
      = loss (Cert.ReferenceIdeal.Read.val_main_v18 (F := Ideal) x0 x1) (Cert.ReferenceIdeal.Read.val_main_v13 (F := Ideal) x0 x1) := rfl

/-- The minimum over the second cloud's points is the nearest-distance array of the first cloud against the second. -/
theorem rows_eq (x0 x1 : (⟨Cert.ReferenceIdeal.S4x8192x3, .f32⟩ : BufTy).Contents (Elt Ideal)) :
    Cert.ReferenceIdeal.Read.val_main_v18 (F := Ideal) x0 x1 = nearestArr x0 x1 := by
  funext j
  obtain ⟨b, n, rfl⟩ : ∃ (b : Fin 4) (n : Fin 8192), j = ix2 b n := ⟨j 0, j 1, eq_ix2 j⟩
  rw [Cert.ReferenceIdeal.RefMin.val_main_v18_apply]
  rfl

/-- The minimum over the first cloud's points is the nearest-distance array of the second cloud against the first. -/
theorem cols_eq (x0 x1 : (⟨Cert.ReferenceIdeal.S4x8192x3, .f32⟩ : BufTy).Contents (Elt Ideal)) :
    Cert.ReferenceIdeal.Read.val_main_v13 (F := Ideal) x0 x1 = nearestArr x1 x0 := by
  funext j
  obtain ⟨b, n, rfl⟩ : ∃ (b : Fin 4) (n : Fin 8192), j = ix2 b n := ⟨j 0, j 1, eq_ix2 j⟩
  rw [Cert.ReferenceIdeal.RefMin.val_main_v13_apply]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end, the kernel program's result at the loss of the two nearest-distance arrays of its clouds, the
    reference's at the loss of its two minima of clouds that agree with them: one number. -/
theorem algebraic : Cert.algebraic_KernelIdeal_ReferenceIdeal := by
  intro m ρ m' ρ' _ hagree
  refine ⟨_, Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v24_eq, ref_eq, rows_eq, cols_eq]
  exact (Cert.KernelIdeal.Tail.result_eq m ρ c).symm

end Cert.Proof.Bridge

end
-- ==== Proof.lean ====
/-
  The proof of `Cert.Claim`: a Chamfer-style loss of two point clouds by two nearest-point kernels against its plain
  array form.

  Both programs take two clouds of four batches of 8192 points with three coordinates. The reference forms every
  expanded squared distance |x_n|² + |y_m|² − 2 x_n·y_m of a batch, takes the minimum over m and the minimum over n,
  clamps both arrays from below at 1e-10, averages each, adds the averages and scales by 1000. The kernel program gets
  the two arrays of minima from two runs of one kernel — queries `x` against keys `y`, then queries `y` against keys
  `x` —, each walking the keys in tiles of 1024 and keeping a running minimum per query, and applies the same tail.
  Over the extended reals a minimum taken tile by tile is the minimum, and the expanded squared distance is symmetric,
  so the two results are one number (Proof/Bridge.lean; the kernel side is Proof/TileDist.lean, Proof/Region0.lean,
  Proof/Region1.lean, Proof/Run.lean, Proof/Tail.lean, the reference side Proof/RefMin.lean). The three frames are the
  programs' runs with the results dropped; the idealization rewrote nothing.
-/
import proofs.«103326_j35502199669085_1_alg».proof.Defs
import proofs.«103326_j35502199669085_1_alg».proof.Proof.Gen.Kernel
import proofs.«103326_j35502199669085_1_alg».proof.Proof.Gen.KernelIdeal
import proofs.«103326_j35502199669085_1_alg».proof.Proof.Gen.ReferenceIdeal
import proofs.«103326_j35502199669085_1_alg».proof.Proof.Gen.Pre_finite_inputs
import proofs.«103326_j35502199669085_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Bridge.frame_k, Bridge.frame_ki, Bridge.frame_ri, Bridge.preserves, Bridge.algebraic⟩

end Cert.Proof

end
